-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x256 : Shape := ⟨2, ![300000, 256]⟩
abbrev S300000 : Shape := ⟨1, ![300000]⟩
abbrev S256x512 : Shape := ⟨2, ![256, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S300000x256 : S_.BroadcastsInDim S300000x256 (![] : Fin 0 → Fin S300000x256.rank)
  reducesTo_S300000x256_S_d0_1 : S300000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256x1 .f32) (main_arg9 : FVec F S1 .f32) (main_v33 : IVec S_ 1) : IVec S_ 1 :=
  let main_v34 : FVec F S256x1 .f32 := Host.absf main_arg8
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S512 .f32) (main_arg6 : FVec F S512x256 .f32) (main_arg7 : FVec F S256 .f32) (main_arg8 : FVec F S256x1 .f32) (main_arg9 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg6
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S300000x256 .f32) (main_arg1 : IVec S300000 32) (main_arg2 : FVec F S256x512 .f32) (main_arg3 : FVec F S512 .f32) (main_arg4 : FVec F S512x512 .f32) (main_arg5 : FVec F S512 .f32) (main_arg6 : FVec F S512x256 .f32) (main_arg7 : FVec F S256 .f32) (main_arg8 : FVec F S256x1 .f32) (main_arg9 : FVec F S1 .f32) : IVec S_ 1 :=
  let main_v0 : FVec F S300000x256 .f32 := Host.absf main_arg0
  let main_cst : FVec F S_ .f32 := constant S_ .f32 0x7F800000#32
  let main_v1 : FVec F S300000x256 .f32 := broadcastInDim S300000x256 ![] bcast_S_S300000x256 main_cst
  let main_v2 : IVec S300000x256 1 := cmpf .olt main_v0 main_v1
  let main_c : IVec S_ 1 := constantI S_ 1 1#1
  let main_v3 : IVec S_ 1 := (fun x v => Host.reduce IntOp.andi x v reducesTo_S300000x256_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_v13 main_v16
-- ==== Kernel.lean ====
abbrev S300000x256 : Shape := ⟨2, ![300000, 256]⟩
abbrev S300000 : Shape := ⟨1, ![300000]⟩
abbrev S256x512 : Shape := ⟨2, ![256, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S300000x1 : Shape := ⟨2, ![300000, 1]⟩
abbrev S1x512 : Shape := ⟨2, ![1, 512]⟩
abbrev S1x256 : Shape := ⟨2, ![1, 256]⟩
abbrev S1x1 : Shape := ⟨2, ![1, 1]⟩
abbrev S2400x256 : Shape := ⟨2, ![2400, 256]⟩
abbrev S2400x1 : Shape := ⟨2, ![2400, 1]⟩
abbrev S2400x512 : Shape := ⟨2, ![2400, 512]⟩

abbrev nBuf : Space → Nat
  | .hbm => 16
  | .vmem => 14
  | .smem => 0
  | _ => 0

abbrev bufTy : (tb : Table) → Fin (tcTables nBuf tb) → BufTy
  | .hbm, ⟨0, _⟩ => ⟨S300000x256, .f32⟩
  | .hbm, ⟨1, _⟩ => ⟨S300000, .i32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S300000x1, .i32⟩
  | .hbm, ⟨11, _⟩ => ⟨S1x512, .f32⟩
  | .hbm, ⟨12, _⟩ => ⟨S1x512, .f32⟩
  | .hbm, ⟨13, _⟩ => ⟨S1x256, .f32⟩
  | .hbm, ⟨14, _⟩ => ⟨S1x1, .f32⟩
  | .hbm, ⟨15, _⟩ => ⟨S300000x1, .f32⟩
  | .local _ .vmem, ⟨0, _⟩ => ⟨S2400x256, .f32⟩
  | .local _ .vmem, ⟨1, _⟩ => ⟨S2400x256, .f32⟩
  | .local _ .vmem, ⟨2, _⟩ => ⟨S2400x1, .i32⟩
  | .local _ .vmem, ⟨3, _⟩ => ⟨S2400x1, .i32⟩
  | .local _ .vmem, ⟨4, _⟩ => ⟨S256x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S512x256, .f32⟩
  | .local _ .vmem, ⟨9, _⟩ => ⟨S1x256, .f32⟩
  | .local _ .vmem, ⟨10, _⟩ => ⟨S256x1, .f32⟩
  | .local _ .vmem, ⟨11, _⟩ => ⟨S1x1, .f32⟩
  | .local _ .vmem, ⟨12, _⟩ => ⟨S2400x1, .f32⟩
  | .local _ .vmem, ⟨13, _⟩ => ⟨S2400x1, .f32⟩
  | _, _ => ⟨S300000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2400x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2400x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S300000_S300000x1 : S300000.ShapeCasts S300000x1
  shapeCasts_S512_S1x512 : S512.ShapeCasts S1x512
  shapeCasts_S256_S1x256 : S256.ShapeCasts S1x256
  shapeCasts_S1_S1x1 : S1.ShapeCasts S1x1
  inb_S2400x256_S2400x256_0_0 : ∀ a, (![0, 0] : Fin 2 → Nat) a + S2400x256.size a ≤ S2400x256.size a
  h_S2400x256 : 0 < S2400x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2400x512 : S1x512.Broadcasts S2400x512
  inb_S512x512_S512x512_0_0 : ∀ a, (![0, 0] : Fin 2 → Nat) a + S512x512.size a ≤ S512x512.size a
  h_S512x512 : 0 < S512x512.numel
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2400x256 : S1x256.Broadcasts S2400x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2400x1 : S1x1.Broadcasts S2400x1
  inb_S2400x1_S2400x1_0_0 : ∀ a, (![0, 0] : Fin 2 → Nat) a + S2400x1.size a ≤ S2400x1.size a
  h_S2400x1 : 0 < S2400x1.numel
  shapeCasts_S2400x1_S2400x1 : S2400x1.ShapeCasts S2400x1
  dot_S2400x256_S256x512_S2400x512_1_0_0_1_n_n_wf : DotDims.WF S2400x256 S256x512 S2400x512 [1] [0] [0] [1] [] []
  dot_S2400x512_S512x512_S2400x512_1_0_0_1_n_n_wf : DotDims.WF S2400x512 S512x512 S2400x512 [1] [0] [0] [1] [] []
  dot_S2400x512_S512x256_S2400x256_1_0_0_1_n_n_wf : DotDims.WF S2400x512 S512x256 S2400x256 [1] [0] [0] [1] [] []
  dot_S2400x256_S256x1_S2400x1_1_0_0_1_n_n_wf : DotDims.WF S2400x256 S256x1 S2400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2400x256.size a ≤ S300000x256.size a
  hwx0_0 : ∀ i : grid0.Coords, EltTy.bits .f32 = 32 ∨ (Rect.block (s := S300000x256) S2400x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2400x1.size a ≤ S300000x1.size a
  hwx0_1 : ∀ i : grid0.Coords, EltTy.bits .i32 = 32 ∨ (Rect.block (s := S300000x1) S2400x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S256x1.size a
  hwx0_8 : ∀ i : grid0.Coords, EltTy.bits .f32 = 32 ∨ (Rect.block (s := S256x1) S256x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2400x1.size a ≤ S300000x1.size a
  hwx0_10 : ∀ i : grid0.Coords, EltTy.bits .f32 = 32 ∨ (Rect.block (s := S300000x1) S2400x1.size (cc0_transform_10 i) (hinb0_10 i)).WholeWords (EltTy.packing .f32)

variable [Facts₀]

def dot_S2400x256_S256x512_S2400x512_1_0_0_1_n_n : DotDims S2400x256 S256x512 S2400x512 where
  lhsContracting := [1]
  rhsContracting := [0]
  lhsNonContracting := [0]
  rhsNonContracting := [1]
  lhsBatch := []
  rhsBatch := []
  wf := dot_S2400x256_S256x512_S2400x512_1_0_0_1_n_n_wf
def dot_S2400x512_S512x512_S2400x512_1_0_0_1_n_n : DotDims S2400x512 S512x512 S2400x512 where
  lhsContracting := [1]
  rhsContracting := [0]
  lhsNonContracting := [0]
  rhsNonContracting := [1]
  lhsBatch := []
  rhsBatch := []
  wf := dot_S2400x512_S512x512_S2400x512_1_0_0_1_n_n_wf
def dot_S2400x512_S512x256_S2400x256_1_0_0_1_n_n : DotDims S2400x512 S512x256 S2400x256 where
  lhsContracting := [1]
  rhsContracting := [0]
  lhsNonContracting := [0]
  rhsNonContracting := [1]
  lhsBatch := []
  rhsBatch := []
  wf := dot_S2400x512_S512x256_S2400x256_1_0_0_1_n_n_wf
def dot_S2400x256_S256x1_S2400x1_1_0_0_1_n_n : DotDims S2400x256 S256x1 S2400x1 where
  lhsContracting := [1]
  rhsContracting := [0]
  lhsNonContracting := [0]
  rhsNonContracting := [1]
  lhsBatch := []
  rhsBatch := []
  wf := dot_S2400x256_S256x1_S2400x1_1_0_0_1_n_n_wf

abbrev win0_0 : Pipeline.Window sig grid0 :=
  Pipeline.Window.ofSpec (Memref.whole main_arg0) S2400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S2400x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S300000x256 : Shape := ⟨2, ![300000, 256]⟩
abbrev S300000 : Shape := ⟨1, ![300000]⟩
abbrev S256x512 : Shape := ⟨2, ![256, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S300000x512 : Shape := ⟨2, ![300000, 512]⟩
abbrev S1x512 : Shape := ⟨2, ![1, 512]⟩
abbrev S_ : Shape := ⟨0, ![]⟩
abbrev S1x256 : Shape := ⟨2, ![1, 256]⟩
abbrev S300000x1 : Shape := ⟨2, ![300000, 1]⟩
abbrev S1x1 : Shape := ⟨2, ![1, 1]⟩

abbrev nBuf : Space → Nat
  | .hbm => 61
  | .vmem => 0
  | .smem => 0
  | _ => 0

abbrev bufTy : (tb : Table) → Fin (tcTables nBuf tb) → BufTy
  | .hbm, ⟨0, _⟩ => ⟨S300000x256, .f32⟩
  | .hbm, ⟨1, _⟩ => ⟨S300000, .i32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S300000x512, .f32⟩
  | .hbm, ⟨11, _⟩ => ⟨S1x512, .f32⟩
  | .hbm, ⟨12, _⟩ => ⟨S300000x512, .f32⟩
  | .hbm, ⟨13, _⟩ => ⟨S300000x512, .f32⟩
  | .hbm, ⟨14, _⟩ => ⟨S300000x512, .f32⟩
  | .hbm, ⟨15, _⟩ => ⟨S300000x512, .f32⟩
  | .hbm, ⟨16, _⟩ => ⟨S_, .f32⟩
  | .hbm, ⟨17, _⟩ => ⟨S300000x512, .f32⟩
  | .hbm, ⟨18, _⟩ => ⟨S300000x512, .f32⟩
  | .hbm, ⟨19, _⟩ => ⟨S_, .f32⟩
  | .hbm, ⟨20, _⟩ => ⟨S300000x512, .f32⟩
  | .hbm, ⟨21, _⟩ => ⟨S300000x512, .f32⟩
  | .hbm, ⟨22, _⟩ => ⟨S300000x512, .f32⟩
  | .hbm, ⟨23, _⟩ => ⟨S300000x512, .f32⟩
  | .hbm, ⟨24, _⟩ => ⟨S1x512, .f32⟩
  | .hbm, ⟨25, _⟩ => ⟨S300000x512, .f32⟩
  | .hbm, ⟨26, _⟩ => ⟨S300000x512, .f32⟩
  | .hbm, ⟨27, _⟩ => ⟨S300000x512, .f32⟩
  | .hbm, ⟨28, _⟩ => ⟨S300000x512, .f32⟩
  | .hbm, ⟨29, _⟩ => ⟨S_, .f32⟩
  | .hbm, ⟨30, _⟩ => ⟨S300000x512, .f32⟩
  | .hbm, ⟨31, _⟩ => ⟨S300000x512, .f32⟩
  | .hbm, ⟨32, _⟩ => ⟨S_, .f32⟩
  | .hbm, ⟨33, _⟩ => ⟨S300000x512, .f32⟩
  | .hbm, ⟨34, _⟩ => ⟨S300000x512, .f32⟩
  | .hbm, ⟨35, _⟩ => ⟨S300000x512, .f32⟩
  | .hbm, ⟨36, _⟩ => ⟨S300000x256, .f32⟩
  | .hbm, ⟨37, _⟩ => ⟨S1x256, .f32⟩
  | .hbm, ⟨38, _⟩ => ⟨S300000x256, .f32⟩
  | .hbm, ⟨39, _⟩ => ⟨S300000x256, .f32⟩
  | .hbm, ⟨40, _⟩ => ⟨S300000x256, .f32⟩
  | .hbm, ⟨41, _⟩ => ⟨S300000x256, .f32⟩
  | .hbm, ⟨42, _⟩ => ⟨S_, .f32⟩
  | .hbm, ⟨43, _⟩ => ⟨S300000x256, .f32⟩
  | .hbm, ⟨44, _⟩ => ⟨S300000x256, .f32⟩
  | .hbm, ⟨45, _⟩ => ⟨S_, .f32⟩
  | .hbm, ⟨46, _⟩ => ⟨S300000x256, .f32⟩
  | .hbm, ⟨47, _⟩ => ⟨S300000x256, .f32⟩
  | .hbm, ⟨48, _⟩ => ⟨S300000x256, .f32⟩
  | .hbm, ⟨49, _⟩ => ⟨S300000x1, .f32⟩
  | .hbm, ⟨50, _⟩ => ⟨S1x1, .f32⟩
  | .hbm, ⟨51, _⟩ => ⟨S300000x1, .f32⟩
  | .hbm, ⟨52, _⟩ => ⟨S300000x1, .f32⟩
  | .hbm, ⟨53, _⟩ => ⟨S300000, .f32⟩
  | .hbm, ⟨54, _⟩ => ⟨S_, .f32⟩
  | .hbm, ⟨55, _⟩ => ⟨S300000, .f32⟩
  | .hbm, ⟨56, _⟩ => ⟨S300000, .i1⟩
  | .hbm, ⟨57, _⟩ => ⟨S300000x1, .i1⟩
  | .hbm, ⟨58, _⟩ => ⟨S_, .f32⟩
  | .hbm, ⟨59, _⟩ => ⟨S300000x1, .f32⟩
  | .hbm, ⟨60, _⟩ => ⟨S300000x1, .f32⟩
  | _, _ => ⟨S300000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_0 : Ref sig .tc := ⟨.hbm, 58, rfl⟩
abbrev main_call3_v0 : Ref sig .tc := ⟨.hbm, 59, rfl⟩
abbrev main_v23 : Ref sig .tc := ⟨.hbm, 60, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S300000x512_0_1 : S1x512.BroadcastsInDim S300000x512 (![0, 1] : Fin 2 → Fin S300000x512.rank)
  bcast_S_S300000x512 : S_.BroadcastsInDim S300000x512 (![] : Fin 0 → Fin S300000x512.rank)
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  dot_S300000x256_S256x512_S300000x512_1_0_0_1_n_n_wf : DotDims.WF S300000x256 S256x512 S300000x512 [1] [0] [0] [1] [] []
  dot_S300000x512_S512x512_S300000x512_1_0_0_1_n_n_wf : DotDims.WF S300000x512 S512x512 S300000x512 [1] [0] [0] [1] [] []
  dot_S300000x512_S512x256_S300000x256_1_0_0_1_n_n_wf : DotDims.WF S300000x512 S512x256 S300000x256 [1] [0] [0] [1] [] []
  dot_S300000x256_S256x1_S300000x1_1_0_0_1_n_n_wf : DotDims.WF S300000x256 S256x1 S300000x1 [1] [0] [0] [1] [] []

variable [Facts₀]

def dot_S300000x256_S256x512_S300000x512_1_0_0_1_n_n : DotDims S300000x256 S256x512 S300000x512 where
  lhsContracting := [1]
  rhsContracting := [0]
  lhsNonContracting := [0]
  rhsNonContracting := [1]
  lhsBatch := []
  rhsBatch := []
  wf := dot_S300000x256_S256x512_S300000x512_1_0_0_1_n_n_wf
def dot_S300000x512_S512x512_S300000x512_1_0_0_1_n_n : DotDims S300000x512 S512x512 S300000x512 where
  lhsContracting := [1]
  rhsContracting := [0]
  lhsNonContracting := [0]
  rhsNonContracting := [1]
  lhsBatch := []
  rhsBatch := []
  wf := dot_S300000x512_S512x512_S300000x512_1_0_0_1_n_n_wf
def dot_S300000x512_S512x256_S300000x256_1_0_0_1_n_n : DotDims S300000x512 S512x256 S300000x256 where
  lhsContracting := [1]
  rhsContracting := [0]
  lhsNonContracting := [0]
  rhsNonContracting := [1]
  lhsBatch := []
  rhsBatch := []
  wf := dot_S300000x512_S512x256_S300000x256_1_0_0_1_n_n_wf
def dot_S300000x256_S256x1_S300000x1_1_0_0_1_n_n : DotDims S300000x256 S256x1 S300000x1 where
  lhsContracting := [1]
  rhsContracting := [0]
  lhsNonContracting := [0]
  rhsNonContracting := [1]
  lhsBatch := []
  rhsBatch := []
  wf := dot_S300000x256_S256x1_S300000x1_1_0_0_1_n_n_wf

class Facts : Prop extends Facts₀ where

variable [Facts]
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«119738_j34797825032476_1_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibDenseStep.lean ====
/-
  DENSE LAYERS STEP BY STEP, at the ideal values: from what the operand's row is to what the result's row is.

  Stated over LibDenseRow's row functions `layer` and `act`.  Each lemma takes as a hypothesis what row `p` of the operand is
  (`ha`) and what the weight's entries are (`hw`), and returns row `p` of the result, so that a chain of layers is read by
  nesting them.  Two spellings: on the vector unit (a matrix product into the zero accumulator; a one-row bias `[1, N]` cast
  to itself and broadcast over the rows; the rectifier against the zero word splat) and on the host (`dot_general`; the bias
  `[N]` broadcast to `[1, N]` and then over the rows; the rectifier against the zero constant broadcast from a scalar).
  Also: the host's broadcasts of a constant, of a column across columns, and the other keep-dimension broadcasts of a
  batch of tables, read at an index; and two tactics that decide, for a printed contraction record that contracts the
  operand's columns with the weight's rows, which operand entries an output entry reads.
  No algebra of the extended reals is used.
-/
import proofs.«119738_j34797825032476_1_alg».proof.Proof.LibRowBias

noncomputable section

open scoped BigOperators

namespace Cert.DenseStep

open Idealize.ShloMosaic Idealize.ShloMosaic.ValueIdx Cert.DenseRow Cert.RowBias

/-! ## The contraction records: operand indices at an output index -/

/-- For a record contracting the operand's columns with the weight's rows: the operand index at output `(p, c)` and
    contraction coordinate `k` is `(p, k)`. -/
macro "plain_lhs " d:ident K:num : tactic => `(tactic| (
  intro p c k
  funext a
  apply Fin.ext
  match a with
  | ⟨0, _⟩ =>
    show (DotDims.lhsIdx $d (ix2 p c) ((contrEquiv1 $d $K rfl rfl).symm k) 0).val = p.val
    unfold DotDims.lhsIdx
    rw [dif_neg (by decide), dif_pos (by decide)]
    rfl
  | ⟨1, _⟩ => exact (DotDims.lhsIdx_val_of_single $d rfl _ _).trans (contrEquiv1_symm_val $d $K rfl rfl k)))

/-- … and the weight index is `(k, c)`. -/
macro "plain_rhs " d:ident K:num : tactic => `(tactic| (
  intro p c k
  funext a
  apply Fin.ext
  match a with
  | ⟨0, _⟩ => exact (DotDims.rhsIdx_val_of_single $d rfl _ _).trans (contrEquiv1_symm_val $d $K rfl rfl k)
  | ⟨1, _⟩ =>
    show (DotDims.rhsIdx $d (ix2 p c) ((contrEquiv1 $d $K rfl rfl).symm k) 1).val = c.val
    unfold DotDims.rhsIdx
    rw [dif_neg (by decide), dif_pos (by decide)]
    rfl))

/-! ## Step lemmas: from the operand's row to the result's row -/

/-- A matrix product into the zero accumulator, at `(p, c)`, given the operand's row `p` and the weight's entries. -/
theorem kmm_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (c : Fin N) :
    matmul d none a w (constant ⟨2, ![R, N]⟩ .f32 0x00000000#32) (ix2 p c) = ∑ k : Fin K, xr k * wm k c := by
  show FloatOps.matmul d none a w (constant ⟨2, ![R, N]⟩ .f32 0x00000000#32) (ix2 p c) = _
  rw [Ideal.matmul_constant_zero_apply, contr_sum d hr hs hl hrr]
  exact Finset.sum_congr rfl fun k _ => by rw [ha k, hw k c]

/-- A one-row bias `[1, N]` cast to itself and broadcast over the rows, at `(p, c)`. -/
theorem kbias_row {R N : ℕ} (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (p : Fin R) (c : Fin N) :
    broadcastTo ⟨2, ![R, N]⟩ (shapeCast ⟨2, ![1, N]⟩ v hc) hb (ix2 p c) = v (ix2 (0 : Fin 1) c) := by
  rw [shapeCast_self, broadcastTo_1b_ab_apply]

/-- A dense layer (product into the zero accumulator plus the one-row bias), at `(p, c)`. -/
theorem klayer_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (c : Fin N) :
    addf (matmul d none a w (constant ⟨2, ![R, N]⟩ .f32 0x00000000#32))
        (broadcastTo ⟨2, ![R, N]⟩ (shapeCast ⟨2, ![1, N]⟩ v hc) hb) (ix2 p c)
      = layer xr wm (fun j => v (ix2 (0 : Fin 1) j)) c := by
  show matmul d none a w (constant ⟨2, ![R, N]⟩ .f32 0x00000000#32) (ix2 p c)
      + broadcastTo ⟨2, ![R, N]⟩ (shapeCast ⟨2, ![1, N]⟩ v hc) hb (ix2 p c) = _
  rw [kmm_row d hr hs hl hrr a w p xr ha wm hw c, kbias_row v hc hb p c]
  rfl

/-- The same followed by the rectifier. -/
theorem klayer_relu_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (c : Fin N) :
    maximumf (addf (matmul d none a w (constant ⟨2, ![R, N]⟩ .f32 0x00000000#32))
        (broadcastTo ⟨2, ![R, N]⟩ (shapeCast ⟨2, ![1, N]⟩ v hc) hb))
        (broadcast ⟨2, ![R, N]⟩ (Scalar.ofBits (F := Ideal) .f32 0x00000000#32)) (ix2 p c)
      = act zf (layer xr wm (fun j => v (ix2 (0 : Fin 1) j))) c :=
  congrArg (fun y => max y zf) (klayer_row d hr hs hl hrr a w p xr ha wm hw v hc hb c)

/-- A weight behind a cast to its own shape reads as itself. -/
theorem self_cast {K N : ℕ} {φ : FTy} (w : FVec Ideal ⟨2, ![K, N]⟩ φ) (h : (⟨2, ![K, N]⟩ : Shape).ShapeCasts ⟨2, ![K, N]⟩)
    (k : Fin K) (j : Fin N) : shapeCast ⟨2, ![K, N]⟩ w h (ix2 k j) = w (ix2 k j) :=
  congrFun (shapeCast_self w h) _

/-! ## The host's spellings -/

/-- A `dot_general`, at `(p, c)`, given the operand's row `p` and the weight's entries. -/
theorem hmm_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (c : Fin N) :
    Host.dotGeneral d none a w (ix2 p c) = ∑ k : Fin K, xr k * w (ix2 k c) := by
  simp only [Host.dotGeneral]
  rw [Ideal.dotGeneral_apply, contr_sum d hr hs hl hrr]
  exact Finset.sum_congr rfl fun k _ => by rw [ha k]

/-- The host's dense layer, at `(p, c)`. -/
theorem hlayer_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (c : Fin N) :
    addf (Host.dotGeneral d none a w)
        (broadcastInDim ⟨2, ![R, N]⟩ ![0, 1] h2 (broadcastInDim ⟨2, ![1, N]⟩ ![1] h1 b)) (ix2 p c)
      = layer xr (fun k j => w (ix2 k j)) (fun j => b (ix1 j)) c := by
  rw [hlayer_apply d hr hs hl hrr none a w b h1 h2 p c, show (fun k => a (ix2 p k)) = xr from funext ha]

/-- A constant broadcast from a scalar reads the constant's value everywhere. -/
theorem hconst {s : Shape} {φ : FTy} (w : BitVec φ.bits) (h : (⟨0, ![]⟩ : Shape).BroadcastsInDim s ![]) (i : s.Idx) :
    broadcastInDim s ![] h (constant (F := Ideal) ⟨0, ![]⟩ φ w) i = Ideal.ofBits φ w := by
  rw [broadcastInDim_apply _ h _ i ix0 (fun a => a.elim0)]
  rfl

/-- The host's rectifier at an index. -/
theorem hrelu {s : Shape} (y : FVec Ideal s .f32) (h : (⟨0, ![]⟩ : Shape).BroadcastsInDim s ![]) (i : s.Idx) :
    maximumf y (broadcastInDim s ![] h (constant (F := Ideal) ⟨0, ![]⟩ .f32 0x00000000#32)) i = max (y i) zf :=
  congrFun (hact y h) i

/-- The host's dense layer followed by its rectifier. -/
theorem hlayer_relu_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![]) (c : Fin N) :
    maximumf (addf (Host.dotGeneral d none a w)
        (broadcastInDim ⟨2, ![R, N]⟩ ![0, 1] h2 (broadcastInDim ⟨2, ![1, N]⟩ ![1] h1 b)))
        (broadcastInDim ⟨2, ![R, N]⟩ ![] h0 (constant (F := Ideal) ⟨0, ![]⟩ .f32 0x00000000#32)) (ix2 p c)
      = act zf (layer xr (fun k j => w (ix2 k j)) (fun j => b (ix1 j))) c :=
  (hrelu _ h0 (ix2 p c)).trans (congrArg (fun y => max y zf) (hlayer_row d hr hs hl hrr a w p xr ha b h1 h2 c))

variable {α : Type}

/-- A column `[R, 1]` broadcast across `N` columns. -/
theorem hbcast_col {R N : ℕ} (v : (⟨2, ![R, 1]⟩ : Shape).Idx → α) (h : (⟨2, ![R, 1]⟩ : Shape).BroadcastsInDim ⟨2, ![R, N]⟩ ![0, 1])
    (r : Fin R) (k : Fin N) : broadcastInDim ⟨2, ![R, N]⟩ ![0, 1] h v (ix2 r k) = v (ix2 r (0 : Fin 1)) :=
  broadcastInDim_apply _ h v (ix2 r k) (ix2 r (0 : Fin 1)) fun ax => by
    match ax with
    | ⟨0, _⟩ =>
      show r.val = if R = 1 then 0 else r.val
      split
      · have := r.isLt; omega
      · rfl
    | ⟨1, _⟩ => rfl

/-- A vector `[A]` as a column `[A, 1]`. -/
theorem hbcast_vec_col {A : ℕ} (v : (⟨1, ![A]⟩ : Shape).Idx → α) (h : (⟨1, ![A]⟩ : Shape).BroadcastsInDim ⟨2, ![A, 1]⟩ ![0])
    (b : Fin A) (u : Fin 1) : broadcastInDim ⟨2, ![A, 1]⟩ ![0] h v (ix2 b u) = v (ix1 b) :=
  broadcastInDim_apply _ h v (ix2 b u) (ix1 b) fun ax => by
    match ax with
    | ⟨0, _⟩ =>
      show b.val = if A = 1 then 0 else b.val
      split
      · have := b.isLt; omega
      · rfl

/-- A per-table row `[A, C]` with a unit row axis inserted, `[A, 1, C]`. -/
theorem hbcast_ac_a1c {A C : ℕ} (v : (⟨2, ![A, C]⟩ : Shape).Idx → α)
    (h : (⟨2, ![A, C]⟩ : Shape).BroadcastsInDim ⟨3, ![A, 1, C]⟩ ![0, 2]) (b : Fin A) (u : Fin 1) (k : Fin C) :
    broadcastInDim ⟨3, ![A, 1, C]⟩ ![0, 2] h v (ix3 b u k) = v (ix2 b k) :=
  broadcastInDim_apply _ h v (ix3 b u k) (ix2 b k) fun ax => by
    match ax with
    | ⟨0, _⟩ =>
      show b.val = if A = 1 then 0 else b.val
      split
      · have := b.isLt; omega
      · rfl
    | ⟨1, _⟩ =>
      show k.val = if C = 1 then 0 else k.val
      split
      · have := k.isLt; omega
      · rfl

/-- `[A, 1, C]` repeated over a table's `B` rows. -/
theorem hbcast_a1c_abc {A B C : ℕ} (v : (⟨3, ![A, 1, C]⟩ : Shape).Idx → α)
    (h : (⟨3, ![A, 1, C]⟩ : Shape).BroadcastsInDim ⟨3, ![A, B, C]⟩ ![0, 1, 2]) (b : Fin A) (n : Fin B) (k : Fin C) :
    broadcastInDim ⟨3, ![A, B, C]⟩ ![0, 1, 2] h v (ix3 b n k) = v (ix3 b (0 : Fin 1) k) :=
  broadcastInDim_apply _ h v (ix3 b n k) (ix3 b (0 : Fin 1) k) fun ax => by
    match ax with
    | ⟨0, _⟩ =>
      show b.val = if A = 1 then 0 else b.val
      split
      · have := b.isLt; omega
      · rfl
    | ⟨1, _⟩ => rfl
    | ⟨2, _⟩ =>
      show k.val = if C = 1 then 0 else k.val
      split
      · have := k.isLt; omega
      · rfl

/-- A per-row number `[A, B]` with a unit column axis appended, `[A, B, 1]`. -/
theorem hbcast_ab_ab1 {A B : ℕ} (v : (⟨2, ![A, B]⟩ : Shape).Idx → α)
    (h : (⟨2, ![A, B]⟩ : Shape).BroadcastsInDim ⟨3, ![A, B, 1]⟩ ![0, 1]) (b : Fin A) (n : Fin B) (u : Fin 1) :
    broadcastInDim ⟨3, ![A, B, 1]⟩ ![0, 1] h v (ix3 b n u) = v (ix2 b n) :=
  broadcastInDim_apply _ h v (ix3 b n u) (ix2 b n) fun ax => by
    match ax with
    | ⟨0, _⟩ =>
      show b.val = if A = 1 then 0 else b.val
      split
      · have := b.isLt; omega
      · rfl
    | ⟨1, _⟩ =>
      show n.val = if B = 1 then 0 else n.val
      split
      · have := n.isLt; omega
      · rfl

/-- `[A, B, 1]` repeated across `C` columns. -/
theorem hbcast_ab1_abc {A B C : ℕ} (v : (⟨3, ![A, B, 1]⟩ : Shape).Idx → α)
    (h : (⟨3, ![A, B, 1]⟩ : Shape).BroadcastsInDim ⟨3, ![A, B, C]⟩ ![0, 1, 2]) (b : Fin A) (n : Fin B) (k : Fin C) :
    broadcastInDim ⟨3, ![A, B, C]⟩ ![0, 1, 2] h v (ix3 b n k) = v (ix3 b n (0 : Fin 1)) :=
  broadcastInDim_apply _ h v (ix3 b n k) (ix3 b n (0 : Fin 1)) fun ax => by
    match ax with
    | ⟨0, _⟩ =>
      show b.val = if A = 1 then 0 else b.val
      split
      · have := b.isLt; omega
      · rfl
    | ⟨1, _⟩ =>
      show n.val = if B = 1 then 0 else n.val
      split
      · have := n.isLt; omega
      · rfl
    | ⟨2, _⟩ => rfl

end Cert.DenseStep

end
-- ==== Proof.LibNormSum.lean ====
/-
  Extended-real algebra for a normalised neighbour sum. A graph convolution scales each neighbour's contribution by
  the factors `1 / sqrt (degree)` of both end points. One way of computing it multiplies every summand by both
  factors and then sums; another sums first and multiplies the total by the destination's factor afterwards. On the
  extended reals multiplication does not distribute over addition in general (`⊤ + ⊥ = ⊥`), but it does for a
  multiplier that is NON-NEGATIVE and FINITE, whatever the summands are (they may be `±∞`). The factor
  `1 / sqrt (1 + number of neighbours)` is such a multiplier. No program appears in this module.
-/
import Idealize.ShloMosaic.PureOps.Ideal.Laws

noncomputable section

namespace Cert.NormSum

open Idealize.ShloMosaic
open scoped BigOperators

/-- A non-negative finite extended real `cv` distributes over any finite sum of extended reals, infinite summands
    included: `cv * Σ f = Σ cv * f`. Induction on the index set; the step is distributivity of such a multiplier
    over one addition. -/
theorem mul_sum_of_nonneg_ne_top {ι : Type*} (S : Finset ι) (f : ι → EReal) (cv : EReal) (h0 : 0 ≤ cv)
    (ht : cv ≠ ⊤) : cv * ∑ e ∈ S, f e = ∑ e ∈ S, cv * f e := by
  classical
  induction S using Finset.induction_on with
  | empty => simp
  | insert a s ha ih =>
    rw [Finset.sum_insert ha, Finset.sum_insert ha, EReal.left_distrib_of_nonneg_of_ne_top h0 ht, ih]

/-- Pulling the destination's factor out of a normalised sum. With every destination factor `dd e` equal to the one
    non-negative finite `cv`: `cv * ((0 + Σ a·ds) + hp·cv) = (0 + Σ a·(ds·dd)) + hp·(cv·cv)`. The left side
    distributes `cv` over the outer sum and then over the inner one; each term then agrees by commutativity and
    associativity of the extended reals' multiplication. -/
theorem norm_pull {ι : Type*} (S : Finset ι) (a ds dd : ι → EReal) (hp cv : EReal) (h0 : 0 ≤ cv) (ht : cv ≠ ⊤)
    (hdd : ∀ e ∈ S, dd e = cv) :
    cv * ((0 + ∑ e ∈ S, a e * ds e) + hp * cv) = (0 + ∑ e ∈ S, a e * (ds e * dd e)) + hp * (cv * cv) := by
  rw [EReal.left_distrib_of_nonneg_of_ne_top h0 ht, zero_add, zero_add,
    mul_sum_of_nonneg_ne_top S (fun e => a e * ds e) cv h0 ht]
  congr 1
  · refine Finset.sum_congr rfl fun e he => ?_
    rw [hdd e he, mul_comm cv (a e * ds e), mul_assoc]
  · exact mul_left_comm cv hp cv

/-- The single-precision pattern `0x3F800000` (sign 0, biased exponent 127, fraction 0) denotes the extended real
    one: `2 ^ 23 * 2 ^ (127 - 127 - 23) = 1`. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(sqrt r)⁻¹`: neither of its corners (a negative
    argument, a zero argument) applies. -/
theorem rsqrt_coe_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A sum of ones over a finite set, plus one, is the real number `card S + 1`. -/
theorem count_add_one {ι : Type*} (S : Finset ι) :
    (0 + ∑ _e ∈ S, (1 : EReal)) + 1 = (((S.card : ℝ) + 1 : ℝ) : EReal) := by
  rw [zero_add, Finset.sum_const, EReal.nsmul_eq_mul, mul_one, EReal.coe_add, EReal.coe_natCast, EReal.coe_one]

/-- The normalising factor `1 / sqrt (1 + number of neighbours)` is a non-negative finite extended real: its
    argument is the positive real `card S + 1`, where the reciprocal square root is the real `(sqrt _)⁻¹ ≥ 0`. -/
theorem rsqrt_count_nonneg_ne_top {ι : Type*} (S : Finset ι) :
    0 ≤ Ideal.rsqrt ((0 + ∑ _e ∈ S, (1 : EReal)) + 1) ∧ Ideal.rsqrt ((0 + ∑ _e ∈ S, (1 : EReal)) + 1) ≠ ⊤ := by
  have hpos : (0 : ℝ) < (S.card : ℝ) + 1 := by positivity
  rw [count_add_one, rsqrt_coe_pos _ hpos]
  exact ⟨EReal.coe_nonneg.mpr (inv_nonneg.mpr (Real.sqrt_nonneg _)), EReal.coe_ne_top _⟩

end Cert.NormSum

end
-- ==== Proof.LibSiluMask.lean ====
/-
  THE ACTIVATION `v · σ(v)` IN ITS TWO SPELLINGS, AND A SIGN MASK IN ITS TWO SPELLINGS, at the ideal values.

  `σ(v) = 1 / (1 + e^(-v))` is the logistic function; `v ↦ v · σ(v)` is the activation often called silu or swish.  Two
  spellings of it occur in printed programs and both are read here at an index where the operand's value is known:
  • on the vector unit, `y · logistic y` entry by entry (`ksilu_at`);
  • on the host, `y · (1 / (1 + e^(-y)))` with the ones the single-precision word of 1.0 broadcast from a scalar, the
    quotient the host's division and the exponential the host's (`hsilu_at`).
  They agree on every extended real, the infinities included, because the library's logistic function is defined as that
  quotient (`silu1_quotient`).
  A mask on integer labels also has two spellings: the label compared, signed, with zero; or the label converted to a
  float and compared with `-1/2`.  An integer is either at least `0` or at most `-1`, so both give the same bit
  (`mask_bit`).  Also: a constant broadcast from a scalar read at an index (`splat_apply`) and a selection read at an index
  (`select_at`).  No program appears in this module; no sum is regrouped and nothing needs to be finite.
-/
import Idealize.ShloMosaic.PureOps.Ideal.Laws
import Idealize.ShloMosaic.Lib.ValueIdx
import Idealize.ShloMosaic.Lib.Pipeline.Value
import proofs.«119738_j34797825032476_1_alg».proof.Proof.LibNormSum

noncomputable section

namespace Cert.SiluMask

open Idealize.ShloMosaic Idealize.ShloMosaic.ValueIdx

/-! ## One number, one row -/

/-- The activation on one number: `v · σ(v)`. -/
def silu1 (v : EReal) : EReal := v * Ideal.logistic v

/-- The activation on every entry of a row. -/
def siluRow {N : ℕ} (x : Fin N → EReal) (j : Fin N) : EReal := silu1 (x j)

/-! ## The activation spelt as a quotient -/

/-- `x · (1 / (1 + e^(-x)))` with the host's division and exponential is `x · σ(x)`: the logistic function is that
    quotient by definition, on every extended real. -/
theorem silu1_quotient (v : EReal) :
    FloatOps.mulf (F := Ideal) (φ := .f32) v
        (FloatOps.hostDivf (1 : EReal) (FloatOps.addf (1 : EReal) (FloatOps.hostUnary .exp (FloatOps.hostNegf v))))
      = silu1 v := rfl

/-- A constant broadcast from a scalar reads the constant's value at every index. -/
theorem splat_apply {s : Shape} {φ : FTy} (w : BitVec φ.bits) (h : (⟨0, ![]⟩ : Shape).BroadcastsInDim s ![]) (i : s.Idx) :
    broadcastInDim s ![] h (constant (F := Ideal) ⟨0, ![]⟩ φ w) i = Ideal.ofBits φ w := by
  rw [broadcastInDim_apply _ h _ i ix0 (fun a => a.elim0)]
  rfl

/-- The host's spelling of the activation, read at an index where the operand's value is known. -/
theorem hsilu_at {s : Shape} (y : FVec Ideal s .f32) (h : (⟨0, ![]⟩ : Shape).BroadcastsInDim s ![]) (i : s.Idx)
    (v : EReal) (hy : y i = v) :
    mulf y (Host.divf (broadcastInDim s ![] h (constant (F := Ideal) ⟨0, ![]⟩ .f32 0x3F800000#32))
        (addf (broadcastInDim s ![] h (constant (F := Ideal) ⟨0, ![]⟩ .f32 0x3F800000#32)) (Host.exp (Host.negf y)))) i
      = silu1 v := by
  show FloatOps.mulf (F := Ideal) (φ := .f32) (y i)
      (FloatOps.hostDivf (broadcastInDim s ![] h (constant (F := Ideal) ⟨0, ![]⟩ .f32 0x3F800000#32) i)
        (FloatOps.addf (broadcastInDim s ![] h (constant (F := Ideal) ⟨0, ![]⟩ .f32 0x3F800000#32) i)
          (FloatOps.hostUnary .exp (FloatOps.hostNegf (y i))))) = _
  rw [splat_apply, Cert.NormSum.one_word, hy]
  exact silu1_quotient v

/-- The vector unit's spelling, `y · logistic y` entry by entry, read at an index where the operand's value is known. -/
theorem ksilu_at {s : Shape} (y : FVec Ideal s .f32) (i : s.Idx) (v : EReal) (hy : y i = v) :
    mulf y (logistic y) i = silu1 v := by
  show FloatOps.mulf (F := Ideal) (φ := .f32) (y i) (FloatOps.logistic (y i)) = _
  rw [hy]
  rfl

/-! ## A selection read at an index -/

/-- `select` at an index where its three operands' values are known. -/
theorem select_at {s : Shape} {α : Type} (c : IVec s 1) (a b : s.Idx → α) (i : s.Idx) (cv : BitVec 1) (av bv : α)
    (hc : c i = cv) (ha : a i = av) (hb : b i = bv) : select c a b i = Scalar.select cv av bv := by
  show Scalar.select (c i) (a i) (b i) = _
  rw [hc, ha, hb]

/-! ## The mask's two spellings -/

/-- The single-precision pattern `0xBF000000` (sign 1, biased exponent 126, fraction 0) denotes `-1/2`:
    `-(2 ^ 23) · 2 ^ (126 - 127 - 23)`. -/
theorem neg_half_word : Ideal.ofBits .f32 0xBF000000#32 = ((-(1 / 2) : ℝ) : EReal) := by
  simp [Ideal.ofBits, Ideal.ieee, -EReal.coe_mul]; norm_num

/-- An integer exceeds `-1/2` exactly when it is at least zero. -/
theorem int_gt_neg_half (n : ℤ) : ((-(1 / 2) : ℝ) : EReal) < ((n : ℝ) : EReal) ↔ 0 ≤ n := by
  rw [EReal.coe_lt_coe_iff]
  constructor
  · intro h
    by_contra hn
    have h1 : n ≤ -1 := by omega
    have h2 : (n : ℝ) ≤ -1 := by exact_mod_cast h1
    linarith
  · intro h
    have h2 : (0 : ℝ) ≤ (n : ℝ) := by exact_mod_cast h
    linarith

/-- The label converted to a float and compared with `-1/2` gives the same bit as the label compared, signed, with
    zero. -/
theorem mask_bit (s : BitVec 32) :
    Ideal.cmp .ogt (((s.toInt : ℝ)) : EReal) (Ideal.ofBits .f32 0xBF000000#32) = IntOp.cmpi .sge s 0#32 := by
  rw [neg_half_word]
  show BitVec.ofBool (decide (((-(1 / 2) : ℝ) : EReal) < ((s.toInt : ℝ) : EReal))) = BitVec.ofBool ((0#32).sle s)
  congr 1
  rw [BitVec.sle, decide_eq_decide]
  exact (int_gt_neg_half s.toInt).trans (by simp)

end Cert.SiluMask

end
-- ==== Proof.MlpSpec.lean ====
/-
  A PERCEPTRON OF THREE HIDDEN LAYERS WITH A ROW MASK, row by row, at the ideal values.

  Each row `x` of the input goes through three dense layers `y ↦ y·W + b`, each followed by the activation
  `v ↦ v · σ(v)` with `σ(v) = 1 / (1 + e^(-v))`, and then through a last dense layer.  A row whose integer label is
  negative is replaced by the zero word's value.  Every output row depends on the same input row, on its label, and on the
  weights, and on nothing else: this module states that function once (`net`, `rowOut`, `G`), for any number of rows
  and any widths, over LibDenseRow's dense layer on a row and LibSiluMask's activation.  No program appears here.
-/
import Idealize.ShloMosaic.PureOps.Ideal.Laws
import Idealize.ShloMosaic.Lib.ValueIdx
import proofs.«119738_j34797825032476_1_alg».proof.Proof.LibDenseRow
import proofs.«119738_j34797825032476_1_alg».proof.Proof.LibSiluMask

noncomputable section

open scoped BigOperators

namespace Cert.MaskedMlp

open Idealize.ShloMosaic Idealize.ShloMosaic.ValueIdx Cert.DenseRow Cert.SiluMask

/-! ## One row -/

/-- The network on one row: three dense layers, each followed by the activation, then the output layer. -/
def net {D H1 H2 H3 O : ℕ} (x : Fin D → EReal)
    (W1 : Fin D → Fin H1 → EReal) (b1 : Fin H1 → EReal) (W2 : Fin H1 → Fin H2 → EReal) (b2 : Fin H2 → EReal)
    (W3 : Fin H2 → Fin H3 → EReal) (b3 : Fin H3 → EReal) (W4 : Fin H3 → Fin O → EReal) (b4 : Fin O → EReal) :
    Fin O → EReal :=
  layer (siluRow (layer (siluRow (layer (siluRow (layer x W1 b1)) W2 b2)) W3 b3)) W4 b4

/-- The value of the all-zero single-precision word, which a masked row holds. It is never evaluated. -/
def zeroWord : EReal := Ideal.ofBits .f32 0x00000000#32

/-- A row's output under the mask: the network's value when the label `s`, read signed, is at least zero, and the zero
    word's value otherwise. -/
def rowOut (s : BitVec 32) (v : EReal) : EReal := Scalar.select (IntOp.cmpi .sge s 0#32) v zeroWord

/-! ## The whole result -/

/-- The result array `[R, O]` as a function of the argument arrays, index by index: row `p` is the network on row `p`
    of the input, kept or zeroed by label `p`. -/
def G {R D H1 H2 H3 O : ℕ} (x0 : (⟨2, ![R, D]⟩ : Shape).Idx → EReal) (x1 : (⟨1, ![R]⟩ : Shape).Idx → BitVec 32)
    (W1 : (⟨2, ![D, H1]⟩ : Shape).Idx → EReal) (b1 : (⟨1, ![H1]⟩ : Shape).Idx → EReal)
    (W2 : (⟨2, ![H1, H2]⟩ : Shape).Idx → EReal) (b2 : (⟨1, ![H2]⟩ : Shape).Idx → EReal)
    (W3 : (⟨2, ![H2, H3]⟩ : Shape).Idx → EReal) (b3 : (⟨1, ![H3]⟩ : Shape).Idx → EReal)
    (W4 : (⟨2, ![H3, O]⟩ : Shape).Idx → EReal) (b4 : (⟨1, ![O]⟩ : Shape).Idx → EReal) :
    (⟨2, ![R, O]⟩ : Shape).Idx → EReal :=
  fun i => rowOut (x1 (ix1 (idxEquiv2 (n0 := R) (n1 := O) i).1))
    (net (fun k => x0 (ix2 (idxEquiv2 (n0 := R) (n1 := O) i).1 k)) (fun k j => W1 (ix2 k j)) (fun j => b1 (ix1 j))
      (fun k j => W2 (ix2 k j)) (fun j => b2 (ix1 j)) (fun k j => W3 (ix2 k j)) (fun j => b3 (ix1 j))
      (fun k j => W4 (ix2 k j)) (fun j => b4 (ix1 j)) (idxEquiv2 (n0 := R) (n1 := O) i).2)

theorem G_apply {R D H1 H2 H3 O : ℕ} (x0 : (⟨2, ![R, D]⟩ : Shape).Idx → EReal) (x1 : (⟨1, ![R]⟩ : Shape).Idx → BitVec 32)
    (W1 : (⟨2, ![D, H1]⟩ : Shape).Idx → EReal) (b1 : (⟨1, ![H1]⟩ : Shape).Idx → EReal)
    (W2 : (⟨2, ![H1, H2]⟩ : Shape).Idx → EReal) (b2 : (⟨1, ![H2]⟩ : Shape).Idx → EReal)
    (W3 : (⟨2, ![H2, H3]⟩ : Shape).Idx → EReal) (b3 : (⟨1, ![H3]⟩ : Shape).Idx → EReal)
    (W4 : (⟨2, ![H3, O]⟩ : Shape).Idx → EReal) (b4 : (⟨1, ![O]⟩ : Shape).Idx → EReal) (p : Fin R) (u : Fin O) :
    G x0 x1 W1 b1 W2 b2 W3 b3 W4 b4 (ix2 p u)
      = rowOut (x1 (ix1 p))
          (net (fun k => x0 (ix2 p k)) (fun k j => W1 (ix2 k j)) (fun j => b1 (ix1 j))
            (fun k j => W2 (ix2 k j)) (fun j => b2 (ix1 j)) (fun k j => W3 (ix2 k j)) (fun j => b3 (ix1 j))
            (fun k j => W4 (ix2 k j)) (fun j => b4 (ix1 j)) u) := rfl

end Cert.MaskedMlp

end
-- ==== Proof.KernelBlock.lean ====
/-
  ONE BLOCK OF ROWS OF THE KERNEL, read row by row, at the ideal values.

  At a grid point the kernel holds a block of 2400 rows of the input, the block's 2400 labels as a column, and the
  weights and one-row biases whole.  What it leaves in the output block (the generated value leg's `E10` over the loads)
  is read here at `(p, u)`: the three hidden layers are matrix products into a zero accumulator plus a one-row bias
  broadcast down the rows, each followed by `y · logistic y`; roundings to the half-width format before each product
  are the identity at the ideal values; the last product has the last bias added and the label's sign selects between
  the sum and the zero word.  Each product's entry `(p, c)` is `∑ k, a (p, k) · w (k, c)`, so row `p` of the block is
  LibDenseRow's `layer` applied four times to row `p` of the loaded input: the specification's `rowOut` of `net`.
  The sums are compared term by term; no algebra of the extended reals is used.
-/
import proofs.«119738_j34797825032476_1_alg».proof.Proof.KernelValuePatched
import proofs.«119738_j34797825032476_1_alg».proof.Proof.LibDenseStep
import proofs.«119738_j34797825032476_1_alg».proof.Proof.MlpSpec

noncomputable section

open scoped BigOperators

namespace Cert.KernelIdeal.BlockValue

open Cert.KernelIdeal Cert.KernelIdeal.Gen Idealize.ShloMosaic Idealize.ShloMosaic.ValueIdx
open Cert.DenseRow Cert.RowBias Cert.DenseStep Cert.MaskedMlp Cert.SiluMask

/-- The last product of the chain at `(p, c)`: the sum over the third hidden layer's activated row `p`. -/
theorem chain_row (P1 : Vec Ideal S2400x256 .f32) (P2 : Vec Ideal S256x512 .f32) (P3 : Vec Ideal S1x512 .f32) (P4 : Vec Ideal S512x512 .f32) (P5 : Vec Ideal S1x512 .f32) (P6 : Vec Ideal S512x256 .f32) (P7 : Vec Ideal S1x256 .f32) (P8 : Vec Ideal S256x1 .f32) (p : Fin 2400) (c : Fin 1) :
    k0_pay2 (F := Ideal) P1 P2 P3 P4 P5 P6 P7 P8 (ix2 p c)
      = ∑ k : Fin 256,
          siluRow (layer (siluRow (layer (siluRow (layer (fun k => P1 (ix2 p k)) (fun k j => P2 (ix2 k j))
              (fun j => P3 (ix2 (0 : Fin 1) j)))) (fun k j => P4 (ix2 k j)) (fun j => P5 (ix2 (0 : Fin 1) j))))
            (fun k j => P6 (ix2 k j)) (fun j => P7 (ix2 (0 : Fin 1) j))) k * P8 (ix2 k c) := by
  unfold k0_pay2
  exact kmm_row dot_S2400x256_S256x1_S2400x1_1_0_0_1_n_n rfl rfl (by plain_lhs dot_S2400x256_S256x1_S2400x1_1_0_0_1_n_n 256) (by plain_rhs dot_S2400x256_S256x1_S2400x1_1_0_0_1_n_n 256) _ _ p _
    (fun k => ksilu_at _ (ix2 p k) _
      (klayer_row dot_S2400x512_S512x256_S2400x256_1_0_0_1_n_n rfl rfl (by plain_lhs dot_S2400x512_S512x256_S2400x256_1_0_0_1_n_n 512) (by plain_rhs dot_S2400x512_S512x256_S2400x256_1_0_0_1_n_n 512) _ _ p _
        (fun k => ksilu_at _ (ix2 p k) _
          (klayer_row dot_S2400x512_S512x512_S2400x512_1_0_0_1_n_n rfl rfl (by plain_lhs dot_S2400x512_S512x512_S2400x512_1_0_0_1_n_n 512) (by plain_rhs dot_S2400x512_S512x512_S2400x512_1_0_0_1_n_n 512) _ _ p _
            (fun k => ksilu_at _ (ix2 p k) _
              (klayer_row dot_S2400x256_S256x512_S2400x512_1_0_0_1_n_n rfl rfl (by plain_lhs dot_S2400x256_S256x512_S2400x512_1_0_0_1_n_n 256) (by plain_rhs dot_S2400x256_S256x512_S2400x512_1_0_0_1_n_n 256) _ _ p _
                (fun _ => rfl) _ (fun _ _ => rfl) P3 _ _ k))
            _ (fun _ _ => rfl) P5 _ _ k))
        _ (fun _ _ => rfl) P7 _ _ k))
    _ (fun _ _ => rfl) c

/-- What the body leaves in the output block at `(p, u)`: the masked network on row `p` of the loaded block. -/
theorem block_row (P0 : Vec Ideal S2400x1 .i32) (P1 : Vec Ideal S2400x256 .f32) (P2 : Vec Ideal S256x512 .f32) (P3 : Vec Ideal S1x512 .f32) (P4 : Vec Ideal S512x512 .f32) (P5 : Vec Ideal S1x512 .f32) (P6 : Vec Ideal S512x256 .f32) (P7 : Vec Ideal S1x256 .f32) (P8 : Vec Ideal S256x1 .f32) (P9 : Vec Ideal S1x1 .f32) (p : Fin 2400) (u : Fin 1) :
    Cert.KernelIdeal.ValueP.E10 (F := Ideal) P0 P1 P2 P3 P4 P5 P6 P7 P8 P9 (ix2 p u)
      = rowOut (P0 (ix2 p (0 : Fin 1)))
          (net (fun k => P1 (ix2 p k)) (fun k j => P2 (ix2 k j)) (fun j => P3 (ix2 (0 : Fin 1) j))
            (fun k j => P4 (ix2 k j)) (fun j => P5 (ix2 (0 : Fin 1) j)) (fun k j => P6 (ix2 k j))
            (fun j => P7 (ix2 (0 : Fin 1) j)) (fun k j => P8 (ix2 k j)) (fun j => P9 (ix2 (0 : Fin 1) j)) u) := by
  obtain rfl : u = 0 := Subsingleton.elim _ _
  have e0 : Cert.KernelIdeal.ValueP.ix10_0 (ix2 p (0 : Fin 1)) = ix2 p (0 : Fin 1) :=
    funext fun a => Fin.ext (by match a with | ⟨0, _⟩ => rfl | ⟨1, _⟩ => rfl)
  have e1 : Cert.KernelIdeal.ValueP.ix10_1 (ix2 p (0 : Fin 1)) = ix2 p (0 : Fin 1) :=
    funext fun a => Fin.ext (by match a with | ⟨0, _⟩ => rfl | ⟨1, _⟩ => rfl)
  have e2 : Cert.KernelIdeal.ValueP.ix10_2 (ix2 p (0 : Fin 1)) = ix2 (0 : Fin 1) (0 : Fin 1) :=
    funext fun a => Fin.ext (by match a with | ⟨0, _⟩ => rfl | ⟨1, _⟩ => rfl)
  show Scalar.select (IntOp.cmpi .sge (P0 (Cert.KernelIdeal.ValueP.ix10_0 (ix2 p (0 : Fin 1)))) 0#32)
      (FloatOps.addf (k0_pay2 (F := Ideal) P1 P2 P3 P4 P5 P6 P7 P8 (Cert.KernelIdeal.ValueP.ix10_1 (ix2 p (0 : Fin 1))))
        (P9 (Cert.KernelIdeal.ValueP.ix10_2 (ix2 p (0 : Fin 1))))) (Scalar.ofBits .f32 0x00000000#32) = _
  rw [e0, e1, e2, chain_row]
  rfl

end Cert.KernelIdeal.BlockValue

end
-- ==== Proof.KernelArray.lean ====
/-
  FROM THE KERNEL'S BLOCKS TO ITS RESULT ARRAY, at the ideal values.

  The grid has 125 points; point `t` holds rows `2400·t … 2400·t + 2399` of the input and of the label column, and the
  weights and biases whole, and writes rows `2400·t …` of the `[300000, 1]` result.  Before the region the host lays the
  labels out as a column and each bias as one row (casts that keep every entry's row-major position).  So entry `y` of the
  block point `t` writes is the specification's `G` of the argument arrays at row `2400·t + y`: the block's rows are the
  arrays' rows, and `G`'s row depends on that row only (`point_eq`, `flushed_eq`).  Every row `r` lies in the block of
  point `r / 2400`, so the blocks cover the array (`cover`) and the array ends holding `G` everywhere (`final`, `run`).
-/
import proofs.«119738_j34797825032476_1_alg».proof.Proof.KernelBlock
import Idealize.ShloMosaic.Lib.StableHlo.Run
import Idealize.ShloMosaic.Lib.ValueLayout

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.MaskedMlp Cert.SiluMask

variable (m : (ℓ : Loc nD τ sig) → Buf (Elt Ideal) ℓ) (ρ : Dev nD → PrngReg)

/-- The offsets `(0, 0)` of a whole-buffer access are the zero function. -/
theorem off_zero : (![0, 0] : Fin 2 → Nat) = fun _ => 0 := funext fun a => by fin_cases a <;> rfl

/-! ## What the region finds in the buffers the host laid out -/

/-- The label column is the label vector cast to `[300000, 1]`. -/
theorem V_labels (c : Dev nD) : (V m c main_v0 : S300000x1.Idx → Elt Ideal .i32)
    = shapeCast S300000x1 (m ((c : Thread nD τ).loc main_arg1)) shapeCasts_S300000_S300000x1 := by
  dsimp only [V, hostOps0]; after_results; rfl

/-- Bias 1's one row is the bias vector cast to `[1, 512]`. -/
theorem V_main_v1 (c : Dev nD) : (V m c main_v1 : S1x512.Idx → Elt Ideal .f32)
    = shapeCast S1x512 (m ((c : Thread nD τ).loc main_arg3)) shapeCasts_S512_S1x512 := by
  dsimp only [V, hostOps0]; after_results; rfl

/-- Bias 2's one row is the bias vector cast to `[1, 512]`. -/
theorem V_main_v2 (c : Dev nD) : (V m c main_v2 : S1x512.Idx → Elt Ideal .f32)
    = shapeCast S1x512 (m ((c : Thread nD τ).loc main_arg5)) shapeCasts_S512_S1x512 := by
  dsimp only [V, hostOps0]; after_results; rfl

/-- Bias 3's one row is the bias vector cast to `[1, 256]`. -/
theorem V_main_v3 (c : Dev nD) : (V m c main_v3 : S1x256.Idx → Elt Ideal .f32)
    = shapeCast S1x256 (m ((c : Thread nD τ).loc main_arg7)) shapeCasts_S256_S1x256 := by
  dsimp only [V, hostOps0]; after_results; rfl

/-- Bias 4's one row is the bias vector cast to `[1, 1]`. -/
theorem V_main_v4 (c : Dev nD) : (V m c main_v4 : S1x1.Idx → Elt Ideal .f32)
    = shapeCast S1x1 (m ((c : Thread nD τ).loc main_arg9)) shapeCasts_S1_S1x1 := by
  dsimp only [V, hostOps0]; after_results; rfl

/-! ## The index maps, decided over the 125 grid points -/

/-- The input's and the labels' row blocks move with the output's; their column block is the only one. -/
theorem idx_rows : ∀ t : Fin cfg0.N, win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_10.index t (1 : Fin 2) = 0 ∧ win0_10.index t (0 : Fin 2) ≤ 124 :=
  (by decide +kernel : ∀ t : Fin grid0.N, _)

/-- The weights and biases are whole at every point: block `(0, 0)`. -/
theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Every one of the 125 row blocks is some point's. -/
theorem idx_onto : ∀ q : Fin 125, ∃ t : Fin cfg0.N, win0_10.index t (0 : Fin 2) = q.val :=
  (by decide +kernel : ∀ q : Fin 125, ∃ t : Fin grid0.N, win0_10.index t (0 : Fin 2) = q.val)

/-! ## Each window's block, read off the argument arrays -/

/-- Entry `y` of the input's block at point `t` is the input at row `2400·(block index) + y`'s row, same column. -/
theorem read_x (c : Dev nD) (t : Fin cfg0.N) (y : S2400x256.Idx) (z : S300000x256.Idx)
    (e0 : (z 0).val = win0_10.index t (0 : Fin 2) * 2400 + (y 0).val) (e1 : (z 1).val = (y 1).val) :
    iblk m c 0 t y = (m ((c : Thread nD τ).loc main_arg0)) z := by
  obtain ⟨f0, f1, -⟩ := idx_rows t
  show V m c main_arg0 (((cfg0.win 0).blk t).view.emb y) = _
  rw [V_main_arg0]
  have h : ((cfg0.win 0).blk t).view.emb y = z := by
    funext a; apply Fin.ext
    match a with
    | ⟨0, _⟩ => show win0_0.index t (0 : Fin 2) * 2400 + 1 * (y 0).val = (z 0).val; omega
    | ⟨1, _⟩ => show win0_0.index t (1 : Fin 2) * 256 + 1 * (y 1).val = (z 1).val; omega
  rw [h]

/-- Entry `y` of the label column's block at point `t` is the label of row `2400·(block index) + y`'s row. -/
theorem read_labels (c : Dev nD) (t : Fin cfg0.N) (y : S2400x1.Idx) (z : S300000.Idx)
    (e0 : (z 0).val = win0_10.index t (0 : Fin 2) * 2400 + (y 0).val) :
    iblk m c 1 t y = (m ((c : Thread nD τ).loc main_arg1)) z := by
  obtain ⟨-, -, f0, f1, -⟩ := idx_rows t
  have hy1 : (y 1).val < 1 := (y 1).isLt
  show V m c main_v0 (((cfg0.win 1).blk t).view.emb y) = _
  rw [V_labels]
  refine shapeCast_apply _ shapeCasts_S300000_S300000x1 _ z ?_
  rw [Shape.rowMajor_val_two, Shape.rowMajor_val_one]
  show (z 0).val = (win0_1.index t (0 : Fin 2) * 2400 + 1 * (y 0).val) * 1 + (win0_1.index t (1 : Fin 2) * 1 + 1 * (y 1).val)
  omega

/-- Weight 1's block is the whole weight at every point. -/
theorem read_w2 (c : Dev nD) (t : Fin cfg0.N) (y : S256x512.Idx) : iblk m c 2 t y = (m ((c : Thread nD τ).loc main_arg2)) y := by
  obtain ⟨f0, f1, -, -, -, -, -, -, -, -, -, -, -, -, -, -⟩ := idx_whole t
  show V m c main_arg2 (((cfg0.win 2).blk t).view.emb y) = _
  rw [V_main_arg2]
  have h : ((cfg0.win 2).blk t).view.emb y = y := by
    funext a; apply Fin.ext
    match a with
    | ⟨0, _⟩ => show win0_2.index t (0 : Fin 2) * 256 + 1 * (y 0).val = (y 0).val; omega
    | ⟨1, _⟩ => show win0_2.index t (1 : Fin 2) * 512 + 1 * (y 1).val = (y 1).val; omega
  rw [h]

/-- Weight 2's block is the whole weight at every point. -/
theorem read_w4 (c : Dev nD) (t : Fin cfg0.N) (y : S512x512.Idx) : iblk m c 4 t y = (m ((c : Thread nD τ).loc main_arg4)) y := by
  obtain ⟨-, -, -, -, f0, f1, -, -, -, -, -, -, -, -, -, -⟩ := idx_whole t
  show V m c main_arg4 (((cfg0.win 4).blk t).view.emb y) = _
  rw [V_main_arg4]
  have h : ((cfg0.win 4).blk t).view.emb y = y := by
    funext a; apply Fin.ext
    match a with
    | ⟨0, _⟩ => show win0_4.index t (0 : Fin 2) * 512 + 1 * (y 0).val = (y 0).val; omega
    | ⟨1, _⟩ => show win0_4.index t (1 : Fin 2) * 512 + 1 * (y 1).val = (y 1).val; omega
  rw [h]

/-- Weight 3's block is the whole weight at every point. -/
theorem read_w6 (c : Dev nD) (t : Fin cfg0.N) (y : S512x256.Idx) : iblk m c 6 t y = (m ((c : Thread nD τ).loc main_arg6)) y := by
  obtain ⟨-, -, -, -, -, -, -, -, f0, f1, -, -, -, -, -, -⟩ := idx_whole t
  show V m c main_arg6 (((cfg0.win 6).blk t).view.emb y) = _
  rw [V_main_arg6]
  have h : ((cfg0.win 6).blk t).view.emb y = y := by
    funext a; apply Fin.ext
    match a with
    | ⟨0, _⟩ => show win0_6.index t (0 : Fin 2) * 512 + 1 * (y 0).val = (y 0).val; omega
    | ⟨1, _⟩ => show win0_6.index t (1 : Fin 2) * 256 + 1 * (y 1).val = (y 1).val; omega
  rw [h]

/-- Weight 4's block is the whole weight at every point. -/
theorem read_w8 (c : Dev nD) (t : Fin cfg0.N) (y : S256x1.Idx) : iblk m c 8 t y = (m ((c : Thread nD τ).loc main_arg8)) y := by
  obtain ⟨-, -, -, -, -, -, -, -, -, -, -, -, f0, f1, -, -⟩ := idx_whole t
  show V m c main_arg8 (((cfg0.win 8).blk t).view.emb y) = _
  rw [V_main_arg8]
  have h : ((cfg0.win 8).blk t).view.emb y = y := by
    funext a; apply Fin.ext
    match a with
    | ⟨0, _⟩ => show win0_8.index t (0 : Fin 2) * 256 + 1 * (y 0).val = (y 0).val; omega
    | ⟨1, _⟩ => show win0_8.index t (1 : Fin 2) * 1 + 1 * (y 1).val = (y 1).val; omega
  rw [h]

/-- Bias 1's one-row block at every point: its entry in column `j` is the bias vector's entry `j`. -/
theorem read_b3 (c : Dev nD) (t : Fin cfg0.N) (y : S1x512.Idx) (z : S512.Idx) (e : (z 0).val = (y 1).val) :
    iblk m c 3 t y = (m ((c : Thread nD τ).loc main_arg3)) z := by
  obtain ⟨-, -, f0, f1, -, -, -, -, -, -, -, -, -, -, -, -⟩ := idx_whole t
  have hy0 : (y 0).val < 1 := (y 0).isLt
  show V m c main_v1 (((cfg0.win 3).blk t).view.emb y) = _
  rw [V_main_v1]
  refine shapeCast_apply _ shapeCasts_S512_S1x512 _ z ?_
  rw [Shape.rowMajor_val_two, Shape.rowMajor_val_one]
  show (z 0).val = (win0_3.index t (0 : Fin 2) * 1 + 1 * (y 0).val) * 512 + (win0_3.index t (1 : Fin 2) * 512 + 1 * (y 1).val)
  omega

/-- Bias 2's one-row block at every point: its entry in column `j` is the bias vector's entry `j`. -/
theorem read_b5 (c : Dev nD) (t : Fin cfg0.N) (y : S1x512.Idx) (z : S512.Idx) (e : (z 0).val = (y 1).val) :
    iblk m c 5 t y = (m ((c : Thread nD τ).loc main_arg5)) z := by
  obtain ⟨-, -, -, -, -, -, f0, f1, -, -, -, -, -, -, -, -⟩ := idx_whole t
  have hy0 : (y 0).val < 1 := (y 0).isLt
  show V m c main_v2 (((cfg0.win 5).blk t).view.emb y) = _
  rw [V_main_v2]
  refine shapeCast_apply _ shapeCasts_S512_S1x512 _ z ?_
  rw [Shape.rowMajor_val_two, Shape.rowMajor_val_one]
  show (z 0).val = (win0_5.index t (0 : Fin 2) * 1 + 1 * (y 0).val) * 512 + (win0_5.index t (1 : Fin 2) * 512 + 1 * (y 1).val)
  omega

/-- Bias 3's one-row block at every point: its entry in column `j` is the bias vector's entry `j`. -/
theorem read_b7 (c : Dev nD) (t : Fin cfg0.N) (y : S1x256.Idx) (z : S256.Idx) (e : (z 0).val = (y 1).val) :
    iblk m c 7 t y = (m ((c : Thread nD τ).loc main_arg7)) z := by
  obtain ⟨-, -, -, -, -, -, -, -, -, -, f0, f1, -, -, -, -⟩ := idx_whole t
  have hy0 : (y 0).val < 1 := (y 0).isLt
  show V m c main_v3 (((cfg0.win 7).blk t).view.emb y) = _
  rw [V_main_v3]
  refine shapeCast_apply _ shapeCasts_S256_S1x256 _ z ?_
  rw [Shape.rowMajor_val_two, Shape.rowMajor_val_one]
  show (z 0).val = (win0_7.index t (0 : Fin 2) * 1 + 1 * (y 0).val) * 256 + (win0_7.index t (1 : Fin 2) * 256 + 1 * (y 1).val)
  omega

/-- Bias 4's one-row block at every point: its entry in column `j` is the bias vector's entry `j`. -/
theorem read_b9 (c : Dev nD) (t : Fin cfg0.N) (y : S1x1.Idx) (z : S1.Idx) (e : (z 0).val = (y 1).val) :
    iblk m c 9 t y = (m ((c : Thread nD τ).loc main_arg9)) z := by
  obtain ⟨-, -, -, -, -, -, -, -, -, -, -, -, -, -, f0, f1⟩ := idx_whole t
  have hy0 : (y 0).val < 1 := (y 0).isLt
  show V m c main_v4 (((cfg0.win 9).blk t).view.emb y) = _
  rw [V_main_v4]
  refine shapeCast_apply _ shapeCasts_S1_S1x1 _ z ?_
  rw [Shape.rowMajor_val_two, Shape.rowMajor_val_one]
  show (z 0).val = (win0_9.index t (0 : Fin 2) * 1 + 1 * (y 0).val) * 1 + (win0_9.index t (1 : Fin 2) * 1 + 1 * (y 1).val)
  omega

/-! ## One point's output block is a block of `G` -/

/-- Stated over variables: when the loaded blocks are the arrays read `off` rows down (the weights and biases whole),
    entry `y` of what the body leaves in the output block is `G` of the arrays at the index `off` rows below `y`. -/
theorem point_eq (x0 : Vec Ideal S2400x256 .f32) (x1 : Vec Ideal S2400x1 .i32) (x2 : Vec Ideal S256x512 .f32)
    (x3 : Vec Ideal S1x512 .f32) (x4 : Vec Ideal S512x512 .f32) (x5 : Vec Ideal S1x512 .f32) (x6 : Vec Ideal S512x256 .f32)
    (x7 : Vec Ideal S1x256 .f32) (x8 : Vec Ideal S256x1 .f32) (x9 : Vec Ideal S1x1 .f32)
    (A0 : S300000x256.Idx → EReal) (A1 : S300000.Idx → BitVec 32) (W1 : S256x512.Idx → EReal) (b1 : S512.Idx → EReal)
    (W2 : S512x512.Idx → EReal) (b2 : S512.Idx → EReal) (W3 : S512x256.Idx → EReal) (b3 : S256.Idx → EReal)
    (W4 : S256x1.Idx → EReal) (b4 : S1.Idx → EReal)
    (off : ℕ) (y : S2400x1.Idx) (i : S300000x1.Idx) (hi : (i 0).val = off + (y 0).val)
    (h0 : ∀ (y : S2400x256.Idx) (z : S300000x256.Idx), (z 0).val = off + (y 0).val → (z 1).val = (y 1).val → x0 y = A0 z)
    (h1 : ∀ (y : S2400x1.Idx) (z : S300000.Idx), (z 0).val = off + (y 0).val → x1 y = A1 z)
    (h2 : ∀ y, x2 y = W1 y) (h3 : ∀ (y : S1x512.Idx) (z : S512.Idx), (z 0).val = (y 1).val → x3 y = b1 z)
    (h4 : ∀ y, x4 y = W2 y) (h5 : ∀ (y : S1x512.Idx) (z : S512.Idx), (z 0).val = (y 1).val → x5 y = b2 z)
    (h6 : ∀ y, x6 y = W3 y) (h7 : ∀ (y : S1x256.Idx) (z : S256.Idx), (z 0).val = (y 1).val → x7 y = b3 z)
    (h8 : ∀ y, x8 y = W4 y) (h9 : ∀ (y : S1x1.Idx) (z : S1.Idx), (z 0).val = (y 1).val → x9 y = b4 z) :
    out0_10 x0 x1 x2 x3 x4 x5 x6 x7 x8 x9 y = G A0 A1 W1 b1 W2 b2 W3 b3 W4 b4 i := by
  unfold out0_10
  simp only [View.ld_unit_zero (S := S2400x256) off_zero, View.ld_unit_zero (S := S2400x1) off_zero,
    View.ld_unit_zero (S := S256x512) off_zero, View.ld_unit_zero (S := S1x512) off_zero,
    View.ld_unit_zero (S := S512x512) off_zero, View.ld_unit_zero (S := S512x256) off_zero,
    View.ld_unit_zero (S := S1x256) off_zero, View.ld_unit_zero (S := S256x1) off_zero,
    View.ld_unit_zero (S := S1x1) off_zero]
  refine (Cert.KernelIdeal.ValueP.canon10_eq x1 x0 x2 x3 x4 x5 x6 x7 x8 x9 y).trans ?_
  obtain ⟨p, u, rfl⟩ : ∃ (p : Fin 2400) (u : Fin 1), y = ix2 p u := ⟨y 0, y 1, eq_ix2 y⟩
  obtain ⟨r, u', rfl⟩ : ∃ (r : Fin 300000) (u' : Fin 1), i = ix2 r u' := ⟨i 0, i 1, eq_ix2 i⟩
  obtain rfl : u' = u := Subsingleton.elim _ _
  have hr : r.val = off + p.val := hi
  rw [Cert.KernelIdeal.BlockValue.block_row, G_apply, h1 (ix2 p (0 : Fin 1)) (ix1 r) hr,
    show (fun k => x0 (ix2 p k)) = fun k => A0 (ix2 r k) from funext fun k => h0 (ix2 p k) (ix2 r k) hr rfl,
    show (fun k j => x2 (ix2 k j)) = fun k j => W1 (ix2 k j) from funext fun k => funext fun j => h2 _,
    show (fun j => x3 (ix2 (0 : Fin 1) j)) = fun j => b1 (ix1 j) from funext fun j => h3 _ _ rfl,
    show (fun k j => x4 (ix2 k j)) = fun k j => W2 (ix2 k j) from funext fun k => funext fun j => h4 _,
    show (fun j => x5 (ix2 (0 : Fin 1) j)) = fun j => b2 (ix1 j) from funext fun j => h5 _ _ rfl,
    show (fun k j => x6 (ix2 k j)) = fun k j => W3 (ix2 k j) from funext fun k => funext fun j => h6 _,
    show (fun j => x7 (ix2 (0 : Fin 1) j)) = fun j => b3 (ix1 j) from funext fun j => h7 _ _ rfl,
    show (fun k j => x8 (ix2 k j)) = fun k j => W4 (ix2 k j) from funext fun k => funext fun j => h8 _,
    show (fun j => x9 (ix2 (0 : Fin 1) j)) = fun j => b4 (ix1 j) from funext fun j => h9 _ _ rfl]

/-- WHAT POINT `t` WRITES BACK is block `t` of `G` of the argument arrays. -/
theorem flushed_eq (c : Dev nD) (t : Fin cfg0.N) :
    (dats m 0 c).flushed 10 t = ((cfg0.win 10).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Cert.KernelIdeal.ValueP.flushed10]
  funext j
  refine point_eq (iblk m c 0 t) (iblk m c 1 t) (iblk m c 2 t) (iblk m c 3 t) (iblk m c 4 t) (iblk m c 5 t) (iblk m c 6 t)
    (iblk m c 7 t) (iblk m c 8 t) (iblk m c 9 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (win0_10.index t (0 : Fin 2) * 2400) j (((cfg0.win 10).blk t).view.emb j) ?_
    (fun y z e0 e1 => read_x m c t y z e0 e1) (fun y z e0 => read_labels m c t y z e0)
    (fun y => read_w2 m c t y) (fun y z e => read_b3 m c t y z e) (fun y => read_w4 m c t y)
    (fun y z e => read_b5 m c t y z e) (fun y => read_w6 m c t y) (fun y z e => read_b7 m c t y z e)
    (fun y => read_w8 m c t y) (fun y z e => read_b9 m c t y z e)
  show win0_10.index t (0 : Fin 2) * 2400 + 1 * (j 0).val = win0_10.index t (0 : Fin 2) * 2400 + (j 0).val
  omega

/-! ## The blocks cover the array -/

/-- An index of the array is in point `t`'s block iff each coordinate is in the block's range on its axis. -/
theorem mem_blk (t : Fin cfg0.N) (i : S300000x1.Idx) :
    i ∈ ((cfg0.win 10).blk t).view.set ↔ ∀ a : Fin 2, win0_10.index t a * S2400x1.size a ≤ (i a).val
      ∧ (i a).val < win0_10.index t a * S2400x1.size a + S2400x1.size a := by
  show i ∈ ((View.whole main_v5).slice (win0_10.rect t)).set ↔ _
  rw [View.set_slice_whole, Rect.mem_set_unit]
  exact Iff.rfl

/-- Row `r` lies in the block of the point whose block index is `r / 2400`. -/
theorem cover (i : S300000x1.Idx) :
    ∃ t : Fin cfg0.N, (cfg0.win 10).flush t = true ∧ i ∈ ((cfg0.win 10).blk t).view.set := by
  have hi0 : (i 0).val < 300000 := (i 0).isLt
  have hi1 : (i 1).val < 1 := (i 1).isLt
  obtain ⟨t, ht⟩ := idx_onto ⟨(i 0).val / 2400, by omega⟩
  have q0 : win0_10.index t (0 : Fin 2) = (i 0).val / 2400 := ht
  obtain ⟨-, -, -, -, q1, -⟩ := idx_rows t
  refine ⟨t, flush0_10 t, ?_⟩
  rw [mem_blk]
  intro a
  match a with
  | ⟨0, _⟩ =>
    show win0_10.index t (0 : Fin 2) * 2400 ≤ (i 0).val ∧ (i 0).val < win0_10.index t (0 : Fin 2) * 2400 + 2400
    omega
  | ⟨1, _⟩ =>
    show win0_10.index t (1 : Fin 2) * 1 ≤ (i 1).val ∧ (i 1).val < win0_10.index t (1 : Fin 2) * 1 + 1
    omega

/-! ## The array after the run, and the run -/

/-- The result array ends holding `G` of the argument arrays. -/
theorem final (c : Dev nD) : (dats m 0 c).arrAt 10 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 10 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (fun t _ => flushed_eq m c t) cover

/-- The kernel's run: the result at `G` of the arguments, the arguments unchanged. -/
theorem run : θ_run defs (onTc (τ := τ) (main (F := Ideal))) ⟨m, fun _ => 0, ρ⟩ fun r => ∀ c : Dev nD,
      r.2.mem ((c : Thread nD τ).loc main_v5) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.ValueP.run_blocks m ρ)

end Cert.KernelIdeal.ArrayValue

end
-- ==== Proof.RefArray.lean ====
/-
  THE REFERENCE'S RESULT, read row by row, at the ideal values.

  The reference computes on the whole `[300000, 256]` input: three times a `dot_general` contracting the operand's
  columns with the weight's rows, plus the bias broadcast first to one row and then over all rows, followed by
  `y · (1 / (1 + e^(-y)))`; then the output layer; then the labels, converted to floats, are compared with `-1/2`, the
  resulting bits are laid out as a column, and each row keeps its value or becomes the zero constant.  Its run's result
  term is read here at `(r, u)`: each `dot_general` entry is `∑ k, a (r, k) · w (k, c)`, the quotient spelling of the
  activation is the specification's `silu1`, and the comparison with `-1/2` gives the bit of the signed comparison with
  zero.  So the whole result is the specification's `G` of the argument arrays.  The sums are compared term by term; no
  algebra of the extended reals is used.
-/
import proofs.«119738_j34797825032476_1_alg».proof.Proof.RefRunPatched
import proofs.«119738_j34797825032476_1_alg».proof.Proof.LibDenseStep
import proofs.«119738_j34797825032476_1_alg».proof.Proof.MlpSpec

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.DenseRow Cert.DenseStep Cert.MaskedMlp Cert.SiluMask

/-- The run's result term is the masked network of the argument arrays, row by row. -/
theorem result_eq (m : (ℓ : Loc nD τ sig) → Buf (Elt Ideal) ℓ) (c : Dev nD) :
    Cert.ReferenceIdeal.ValueP.res_main_v23 (F := Ideal) m c
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  obtain ⟨r, u, rfl⟩ : ∃ (r : Fin 300000) (u : Fin 1), i = ix2 r u := ⟨i 0, i 1, eq_ix2 i⟩
  rw [G_apply]
  unfold Cert.ReferenceIdeal.ValueP.res_main_v23 rowOut
  refine select_at _ _ _ (ix2 r u) _ _ _ ?_ ?_ ?_
  · -- the mask: the compared labels laid out as a column
    refine (hbcast_vec_col _ bcast_S300000_S300000x1_0 r u).trans ?_
    show Ideal.cmp .ogt (((((m ((c.tc : Thread nD τ).loc main_arg1)) : S300000.Idx → BitVec 32) (ix1 r)).toInt : ℝ) : EReal)
        (broadcastInDim S300000 ![] bcast_S_S300000 (constant (F := Ideal) S_ .f32 0xBF000000#32) (ix1 r)) = _
    rw [splat_apply]
    exact mask_bit _
  · -- the value: four dense layers, three activations
    exact hlayer_row dot_S300000x256_S256x1_S300000x1_1_0_0_1_n_n rfl rfl (by plain_lhs dot_S300000x256_S256x1_S300000x1_1_0_0_1_n_n 256) (by plain_rhs dot_S300000x256_S256x1_S300000x1_1_0_0_1_n_n 256) _ _ r _
      (fun k => hsilu_at _ bcast_S_S300000x256 (ix2 r k) _
        (hlayer_row dot_S300000x512_S512x256_S300000x256_1_0_0_1_n_n rfl rfl (by plain_lhs dot_S300000x512_S512x256_S300000x256_1_0_0_1_n_n 512) (by plain_rhs dot_S300000x512_S512x256_S300000x256_1_0_0_1_n_n 512) _ _ r _
          (fun k => hsilu_at _ bcast_S_S300000x512 (ix2 r k) _
            (hlayer_row dot_S300000x512_S512x512_S300000x512_1_0_0_1_n_n rfl rfl (by plain_lhs dot_S300000x512_S512x512_S300000x512_1_0_0_1_n_n 512) (by plain_rhs dot_S300000x512_S512x512_S300000x512_1_0_0_1_n_n 512) _ _ r _
              (fun k => hsilu_at _ bcast_S_S300000x512 (ix2 r k) _
                (hlayer_row dot_S300000x256_S256x512_S300000x512_1_0_0_1_n_n rfl rfl (by plain_lhs dot_S300000x256_S256x512_S300000x512_1_0_0_1_n_n 256) (by plain_rhs dot_S300000x256_S256x512_S300000x512_1_0_0_1_n_n 256) _ _ r _
                  (fun _ => rfl) (m ((c.tc : Thread nD τ).loc main_arg3)) bcast_S512_S1x512_1 bcast_S1x512_S300000x512_0_1 k))
              (m ((c.tc : Thread nD τ).loc main_arg5)) bcast_S512_S1x512_1 bcast_S1x512_S300000x512_0_1 k))
          (m ((c.tc : Thread nD τ).loc main_arg7)) bcast_S256_S1x256_1 bcast_S1x256_S300000x256_0_1 k))
      (m ((c.tc : Thread nD τ).loc main_arg9)) bcast_S1_S1x1_1 bcast_S1x1_S300000x1_0_1 u
  · -- a masked row holds the zero constant
    exact splat_apply _ bcast_S_S300000x1 _

end Cert.ReferenceIdeal.RefValue

end
-- ==== Proof.lean ====
/-
  A masked perceptron: the kernel's tiled evaluation against the reference's whole-array evaluation.

  Both programs send each of 300000 rows `x` of 256 numbers through three dense layers `y ↦ y·W + b` (widths 512, 512,
  256), each followed by `v ↦ v · σ(v)`, `σ(v) = 1 / (1 + e^(-v))`, and a last dense layer with one output; a row whose
  integer label is negative gives zero instead.  The kernel works on 125 blocks of 2400 rows, with matrix products into a
  zero accumulator after rounding to a half-width format (the identity on the ideal values) and the library's logistic
  function; it tests the label by a signed comparison with zero.  The reference works on the whole array with
  `dot_general`, spells `σ` as the quotient, and tests the label by converting it to a float and comparing with `-1/2`.

  On the extended reals both are the one function `G` of the argument arrays (Proof/MlpSpec.lean): every product entry is
  the same sum `∑ k, a (r, k) · w (k, c)`, term by term in the same order; the logistic function is that quotient by
  definition, at the infinities too; and an integer exceeds `-1/2` exactly when it is at least zero.  No sum is regrouped
  and no factor is moved across a sum, so nothing needs to be finite and the precondition is not opened.
  • the kernel's result array is `G` of the arguments: Proof/KernelBlock.lean (one block, row by row) and
    Proof/KernelArray.lean (block `t` is rows `2400·t …` of `G`, and the blocks cover the array);
  • the reference's result is `G` of the arguments: Proof/RefArray.lean;
  • the three programs run and leave their arguments unchanged: the generated frames of the two kernel programs, and the
    reference's run with its result dropped;
  • the idealized kernel is the kernel's own text read at the ideal values: nothing was rewritten, so there is nothing to
    preserve.
-/
import proofs.«119738_j34797825032476_1_alg».proof.Defs
import proofs.«119738_j34797825032476_1_alg».proof.Proof.Gen.Kernel
import proofs.«119738_j34797825032476_1_alg».proof.Proof.Gen.Kernel.Frame
import proofs.«119738_j34797825032476_1_alg».proof.Proof.Gen.KernelIdeal
import proofs.«119738_j34797825032476_1_alg».proof.Proof.Gen.KernelIdeal.Frame
import proofs.«119738_j34797825032476_1_alg».proof.Proof.Gen.ReferenceIdeal
import proofs.«119738_j34797825032476_1_alg».proof.Proof.Gen.Pre_finite_inputs
import proofs.«119738_j34797825032476_1_alg».proof.Proof.KernelArray
import proofs.«119738_j34797825032476_1_alg».proof.Proof.RefArray
import Idealize.ShloMosaic.Adequacy
import Idealize.ShloMosaic.Init

noncomputable section

namespace Cert.Proof

open Idealize.ShloMosaic Idealize.ShloMosaic.TcCoe Idealize.SL.Sem Cert.MaskedMlp

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments the kernel's result array ends at `G` of its arguments and the
    reference's at `G` of its own: the same arrays, so the same result. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9⟩ := hagree c
  rw [Cert.ReferenceIdeal.RefValue.result_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
